-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x2048 : Shape := ⟨3, ![4, 1024, 2048]⟩
abbrev S2048x2048 : Shape := ⟨2, ![2048, 2048]⟩
abbrev S2048 : Shape := ⟨1, ![2048]⟩
abbrev S_ : Shape := ⟨0, ![]⟩

class Facts : Prop where
  bcast_S_S4x1024x2048 : S_.BroadcastsInDim S4x1024x2048 (![] : Fin 0 → Fin S4x1024x2048.rank)
  reducesTo_S4x1024x2048_S_d0_1_2 : S4x1024x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x1024x2048 .f32) (main_arg1 : FVec F S2048x2048 .f32) (main_arg2 : FVec F S2048 .f32) : IVec S_ 1 :=
  let main_v0 : FVec F S4x1024x2048 .f32 := Host.absf main_arg0
  let main_cst : FVec F S_ .f32 := constant S_ .f32 0x7F800000#32
  let main_v1 : FVec F S4x1024x2048 .f32 := broadcastInDim S4x1024x2048 ![] bcast_S_S4x1024x2048 main_cst
  let main_v2 : IVec S4x1024x2048 1 := cmpf .olt main_v0 main_v1
  let main_c : IVec S_ 1 := constantI S_ 1 1#1
  let main_v3 : IVec S_ 1 := (fun x v => Host.reduce IntOp.andi x v reducesTo_S4x1024x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x1024x2048 : Shape := ⟨3, ![4, 1024, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S512x2048 : Shape := ⟨2, ![512, 2048]⟩

abbrev nBuf : Space → Nat
  | .hbm => 8
  | .vmem => 6
  | .smem => 0
  | _ => 0

abbrev bufTy : (tb : Table) → Fin (tcTables nBuf tb) → BufTy
  | .hbm, ⟨0, _⟩ => ⟨S4x1024x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S2048x2048, .bf16⟩
  | .hbm, ⟨5, _⟩ => ⟨S1x2048, .f32⟩
  | .hbm, ⟨6, _⟩ => ⟨S4096x2048, .f32⟩
  | .hbm, ⟨7, _⟩ => ⟨S4x1024x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x1024x2048_S4096x2048 : S4x1024x2048.ShapeCasts S4096x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S4096x2048_S4x1024x2048 : S4096x2048.ShapeCasts S4x1024x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x2048 : Shape := ⟨3, ![4, 1024, 2048]⟩
abbrev S2048x2048 : Shape := ⟨2, ![2048, 2048]⟩
abbrev S2048 : Shape := ⟨1, ![2048]⟩
abbrev S4096x2048 : Shape := ⟨2, ![4096, 2048]⟩
abbrev S4096x16x128 : Shape := ⟨3, ![4096, 16, 128]⟩
abbrev S16x4096x128 : Shape := ⟨3, ![16, 4096, 128]⟩
abbrev S16x128x2048 : Shape := ⟨3, ![16, 128, 2048]⟩
abbrev S16x4096x2048 : Shape := ⟨3, ![16, 4096, 2048]⟩
abbrev S_ : Shape := ⟨0, ![]⟩
abbrev S1x1x2048 : Shape := ⟨3, ![1, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S4096x16x128, .f32⟩
  | .hbm, ⟨5, _⟩ => ⟨S16x4096x128, .f32⟩
  | .hbm, ⟨6, _⟩ => ⟨S2048x2048, .f32⟩
  | .hbm, ⟨7, _⟩ => ⟨S16x128x2048, .f32⟩
  | .hbm, ⟨8, _⟩ => ⟨S16x4096x2048, .f32⟩
  | .hbm, ⟨9, _⟩ => ⟨S_, .f32⟩
  | .hbm, ⟨10, _⟩ => ⟨S4096x2048, .f32⟩
  | .hbm, ⟨11, _⟩ => ⟨S4x1024x2048, .f32⟩
  | .hbm, ⟨12, _⟩ => ⟨S1x1x2048, .f32⟩
  | .hbm, ⟨13, _⟩ => ⟨S4x1024x2048, .f32⟩
  | .hbm, ⟨14, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4x1024x2048_S4096x2048 : S4x1024x2048.ShapeCasts S4096x2048
  shapeCasts_S4096x2048_S4096x16x128 : S4096x2048.ShapeCasts S4096x16x128
  transposes_S4096x16x128_S16x4096x128_1_0_2 : S4096x16x128.Transposes [1, 0, 2] S16x4096x128
  transposes_S2048x2048_S2048x2048_1_0 : S2048x2048.Transposes [1, 0] S2048x2048
  shapeCasts_S2048x2048_S16x128x2048 : S2048x2048.ShapeCasts S16x128x2048
  reducesTo_S16x4096x2048_S4096x2048_d0 : S16x4096x2048.ReducesTo [0] S4096x2048
  h_S_ : 0 < S_.numel
  shapeCasts_S4096x2048_S4x1024x2048 : S4096x2048.ShapeCasts S4x1024x2048
  bcast_S2048_S1x1x2048_2 : S2048.BroadcastsInDim S1x1x2048 (![2] : Fin 1 → Fin S1x1x2048.rank)
  bcast_S1x1x2048_S4x1024x2048_0_1_2 : S1x1x2048.BroadcastsInDim S4x1024x2048 (![0, 1, 2] : Fin 3 → Fin S4x1024x2048.rank)
  dot_S16x4096x128_S16x128x2048_S16x4096x2048_2_1_1_2_0_0_wf : DotDims.WF S16x4096x128 S16x128x2048 S16x4096x2048 [2] [1] [1] [2] [0] [0]

variable [Facts₀]

def dot_S16x4096x128_S16x128x2048_S16x4096x2048_2_1_1_2_0_0 : DotDims S16x4096x128 S16x128x2048 S16x4096x2048 where
  lhsContracting := [2]
  rhsContracting := [1]
  lhsNonContracting := [1]
  rhsNonContracting := [2]
  lhsBatch := [0]
  rhsBatch := [0]
  wf := dot_S16x4096x128_S16x128x2048_S16x4096x2048_2_1_1_2_0_0_wf

class Facts : Prop extends Facts₀ where

variable [Facts]
-- ==== Proof.KernelBlock.lean ====
/-
  What the kernel body stores at one grid point, read at an index of its 512 × 2048 block.

  The body loads a block `a` of 512 rows of the flattened input, the whole weight `w` (2048 × 2048, its SECOND axis the
  contracted one) and the bias row, and stores `a ·ᵀ w + bias`: over the extended reals the change of float format is the
  identity, and the matrix product into the zero accumulator is the plain finite sum, so the stored value at `(p, q)` is
  `Σ_{k < 2048} a (p, k) · w (q, k) + bias (0, q)`.
-/
import proofs.«141525_j12730283065838_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-! ### The operand indices of the product: both operands are contracted along their second axis -/

theorem lhs_row (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl

theorem lhs_col (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q

theorem rhs_row (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl

theorem rhs_col (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into the zero accumulator at `(p, q)`: row `p` of the left operand against ROW `q` of the right one. -/
theorem product_apply (l : FVec Ideal S512x2048 .bf16) (r : FVec Ideal S2048x2048 .bf16) (p : Fin 512) (q : Fin 2048) :
    matmul dot_S512x2048_S2048x2048_S512x2048_1_1_0_0_n_n none l r (constant (F := Ideal) S512x2048 .f32 0x00000000#32) (ix2 p q)
      = ∑ k : Fin 2048, l (ix2 p k) * r (ix2 q k) := by
  simp only [matmul]
  rw [Ideal.matmul_constant_zero_apply,
    ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q)
      ((contrEquiv1 dot_S512x2048_S2048x2048_S512x2048_1_1_0_0_n_n 2048 rfl rfl).symm k) = ix2 p k :=
    funext fun a => Fin.ext (by
      match a with
      | ⟨0, _⟩ => exact lhs_row _ _
      | ⟨1, _⟩ => exact (lhs_col _ _).trans hk)
  have er : dot_S512x2048_S2048x2048_S512x2048_1_1_0_0_n_n.rhsIdx (ix2 p q)
      ((contrEquiv1 dot_S512x2048_S2048x2048_S512x2048_1_1_0_0_n_n 2048 rfl rfl).symm k) = ix2 q k :=
    funext fun a => Fin.ext (by
      match a with
      | ⟨0, _⟩ => exact rhs_row _ _
      | ⟨1, _⟩ => exact (rhs_col _ _).trans hk)
  rw [el, er]

/-- The bias row broadcast down the block's 512 rows. -/
theorem bias_rows_apply (v : FVec Ideal S1x2048 .f32) (p : Fin 512) (q : Fin 2048) :
    broadcastTo S512x2048 v broadcasts_S1x2048_S512x2048 (ix2 p q) = v (ix2 0 q) :=
  broadcastTo_apply v broadcasts_S1x2048_S512x2048 (ix2 p q) (ix2 0 q) (fun a => by
    match a with
    | ⟨0, _⟩ => show 0 = if (1 : Nat) = 1 then 0 else _; rw [if_pos rfl]
    | ⟨1, _⟩ => show q.val = if (2048 : Nat) = 1 then 0 else q.val; rw [if_neg (by decide)])

/-- The stored block at `(p, q)`. -/
theorem stored_apply (a : Vec Ideal S512x2048 .f32) (w : Vec Ideal S2048x2048 .bf16) (bias : Vec Ideal S1x2048 .f32)
    (p : Fin 512) (q : Fin 2048) :
    k0_pay1 (F := Ideal) a w bias (ix2 p q) = (∑ k : Fin 2048, a (ix2 p k) * w (ix2 q k)) + bias (ix2 0 q) := by
  unfold k0_pay1
  simp only [shapeCast_self]
  rw [addf_apply, product_apply, bias_rows_apply]
  rfl

end Cert.KernelIdeal.Hand

end
-- ==== Proof.KernelArray.lean ====
/-
  The kernel's 4096 × 2048 result array after the run, as one function of the arrays the region finds.

  The grid has eight points; point `t` reads rows `512 t … 512 t + 511` of the flattened input `X`, the whole weight `W`
  and the whole bias row `B`, and writes back rows `512 t … 512 t + 511` of the result. What it writes is a block of ONE
  function of the three arrays,

      rows X W B (r, n) = Σ_{k < 2048} X (r, k) · W (n, k) + B (0, n),

  because row `p` of the block is row `512 t + p` of `X` and the other two operands are read whole. The eight blocks tile
  the array (row `r` lies in the block of point `r / 512`), so the array ends holding `rows X W B`.
-/
import proofs.«141525_j12730283065838_2_alg».proof.Proof.Gen.KernelIdeal.Frame
import proofs.«141525_j12730283065838_2_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The result array as a function of the flattened input, the weight and the bias row. -/
def rows (X : FVec Ideal S4096x2048 .f32) (W : FVec Ideal S2048x2048 .bf16) (B : FVec Ideal S1x2048 .f32) :
    FVec Ideal S4096x2048 .f32 :=
  fun i => (∑ k : Fin 2048, X (ix2 (i 0) k) * W (ix2 (i 1) k)) + B (ix2 0 (i 1))

/-- The stored block at any index of the block. -/
theorem stored_at (a : Vec Ideal S512x2048 .f32) (w : Vec Ideal S2048x2048 .bf16) (bias : Vec Ideal S1x2048 .f32)
    (y : S512x2048.Idx) :
    k0_pay1 (F := Ideal) a w bias y = (∑ k : Fin 2048, a (ix2 (y 0) k) * w (ix2 (y 1) k)) + bias (ix2 0 (y 1)) := by
  obtain ⟨p, q, rfl⟩ : ∃ (p : Fin 512) (q : Fin 2048), y = ix2 p q := ⟨y 0, y 1, eq_ix2 y⟩
  exact stored_apply a w bias p q

/-- The printed index maps over the grid: the input's and the result's row blocks move together with the point, every
    other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `512 t + p` of the flattened input. -/
theorem input_block_apply (c : Dev nD) (t : Fin cfg0.N) (y : S512x2048.Idx) (i : S4096x2048.Idx)
    (h0 : (i 0).val = t.val * 512 + (y 0).val) (h1 : (i 1).val = (y 1).val) :
    (iblk m c 0 t : Vec Ideal S512x2048 .f32) y = (V m c main_v0 : S4096x2048.Idx → Elt Ideal .f32) i := by
  obtain ⟨e0, e1, -⟩ := block_indices t
  unfold iblk
  rw [View.read_apply]
  show V m c main_v0 _ = V m c main_v0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

/-- The weight block at every point is the whole weight. -/
theorem weight_block_apply (c : Dev nD) (t : Fin cfg0.N) (y : S2048x2048.Idx) :
    (iblk m c 1 t : Vec Ideal S2048x2048 .bf16) y = (V m c main_v1 : S2048x2048.Idx → Elt Ideal .bf16) y := by
  obtain ⟨-, -, e0, e1, -⟩ := block_indices t
  unfold iblk
  rw [View.read_apply]
  show V m c main_v1 _ = V m c main_v1 _
  congr 1
  funext a
  apply Fin.ext
  match a with
  | ⟨0, _⟩ => show win0_1.index t (0 : Fin 2) * 2048 + 1 * (y 0).val = (y 0).val; rw [e0]; omega
  | ⟨1, _⟩ => show win0_1.index t (1 : Fin 2) * 2048 + 1 * (y 1).val = (y 1).val; rw [e1]; omega

/-- The bias block at every point is the whole bias row. -/
theorem bias_block_apply (c : Dev nD) (t : Fin cfg0.N) (y : S1x2048.Idx) :
    (iblk m c 2 t : Vec Ideal S1x2048 .f32) y = (V m c main_v2 : S1x2048.Idx → Elt Ideal .f32) y := by
  obtain ⟨-, -, -, -, e0, e1, -⟩ := block_indices t
  unfold iblk
  rw [View.read_apply]
  show V m c main_v2 _ = V m c main_v2 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- What point `t` writes back is block `t` of `rows` of the arrays the region finds. -/
theorem flushed_eq (c : Dev nD) (t : Fin cfg0.N) :
    (dats m 0 c).flushed 3 t
      = ((cfg0.win 3).blk t).view.read (Elt Ideal) (rows (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨-, -, -, -, -, -, e0, e1⟩ := block_indices t
  funext j
  show k0_pay1 (F := Ideal) (iblk m c 0 t) (iblk m c 1 t) (iblk m c 2 t) j
    = rows (V m c main_v0) (V m c main_v1) (V m c main_v2) (((cfg0.win 3).blk t).view.emb j)
  refine (stored_at (iblk m c 0 t) (iblk m c 1 t) (iblk m c 2 t) j).trans ?_
  unfold rows
  have r0 : ((((cfg0.win 3).blk t).view.emb j) 0).val = t.val * 512 + (j 0).val := by
    show win0_3.index t (0 : Fin 2) * 512 + 1 * (j 0).val = _; rw [e0]; omega
  have r1 : ((((cfg0.win 3).blk t).view.emb j) 1).val = (j 1).val := by
    show win0_3.index t (1 : Fin 2) * 2048 + 1 * (j 1).val = _; rw [e1]; omega
  refine congrArg₂ (· + ·) (Finset.sum_congr rfl fun k _ => congrArg₂ (· * ·) ?_ ?_) ?_
  · exact input_block_apply m c t (ix2 (j 0) k) (ix2 ((((cfg0.win 3).blk t).view.emb j) 0) k) r0 rfl
  · refine (weight_block_apply m c t (ix2 (j 1) k)).trans (congrArg _ ?_)
    funext a; apply Fin.ext
    match a with
    | ⟨0, _⟩ => exact r1.symm
    | ⟨1, _⟩ => rfl
  · refine (bias_block_apply m c t (ix2 0 (j 1))).trans (congrArg _ ?_)
    funext a; apply Fin.ext
    match a with
    | ⟨0, _⟩ => rfl
    | ⟨1, _⟩ => exact r1.symm

/-- An index of the result array is in point `t`'s block iff each coordinate is in the block's range on its axis. -/
theorem mem_block (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v3).slice (win0_3.rect t)).set ↔ _
  rw [View.set_slice_whole, Rect.mem_set_unit]
  exact Iff.rfl

/-- Every index of the result array is in the block of the point its row belongs to. -/
theorem covered (i : S4096x2048.Idx) :
    ∃ t : Fin cfg0.N, (cfg0.win 3).flush t = true ∧ i ∈ ((cfg0.win 3).blk t).view.set := by
  have hN : cfg0.N = 8 := N_0
  have hi0 : (i 0).val < 4096 := (i 0).isLt
  have hi1 : (i 1).val < 2048 := (i 1).isLt
  refine ⟨⟨(i 0).val / 512, by rw [hN]; omega⟩, flush0_3 _, ?_⟩
  rw [mem_block]
  obtain ⟨-, -, -, -, -, -, e0, e1⟩ := block_indices ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 2048 ≤ (i 1).val ∧ (i 1).val < win0_3.index _ (1 : Fin 2) * 2048 + 2048
    rw [e1]; omega

/-- The result array after the run. -/
theorem final_rows (c : Dev nD) :
    (dats m 0 c).arrAt 3 cfg0.N = rows (V m c main_v0) (V m c main_v1) (V m c main_v2) :=
  (dats m 0 c).arrAt_eq_of_cover 3 (rows (V m c main_v0) (V m c main_v1) (V m c main_v2))
    (fun t _ => flushed_eq m c t) covered

end Cert.KernelIdeal.Hand

end
-- ==== Proof.DenseSpec.lean ====
/-
  The dense affine map the two programs compute, stated once over the extended reals and over literal shapes:

      out (b, s, n) = Σ_{k < 2048} x (b, s, k) · w (n, k) + bias n        (b < 4, s < 1024, n < 2048).

  The reference reaches it through sixteen partial products over 128 consecutive values of `k` each, added up; so the one
  algebraic law used is that a sum over `a · b` consecutive positions is the iterated sum over `a` groups of `b` positions,
  position `i · b + j` in group `i`. It only regroups a finite sum in an additive commutative monoid: no element needs to be
  finite, and the extended reals' `+` is associative and commutative at the infinities too.
-/
import Idealize.ShloMosaic.PureOps.Ideal.Laws
import Idealize.ShloMosaic.Lib.ValueIdx

namespace Idealize.ShloMosaic.DenseAffine

open Idealize.ShloMosaic.ValueIdx

/-- Position `i · b + j` (`i < a`, `j < b`) is below `a · b`. -/
theorem group_lt {a b : Nat} (i : Fin a) (j : Fin b) : i.val * b + j.val < a * b := by
  have hi := i.isLt
  have hj := j.isLt
  calc i.val * b + j.val < i.val * b + b := Nat.add_lt_add_left hj _
    _ = (i.val + 1) * b := (Nat.succ_mul _ _).symm
    _ ≤ a * b := Nat.mul_le_mul_right _ hi

/-- A sum over `a · b` positions is the sum over `a` groups of the sums over each group's `b` positions. -/
theorem sum_groups {M : Type*} [AddCommMonoid M] (a b : Nat) (f : Fin (a * b) → M) :
    ∑ k : Fin (a * b), f k = ∑ i : Fin a, ∑ j : Fin b, f ⟨i.val * b + j.val, group_lt i j⟩ := by
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm, Nat.add_comm]

/-- The contraction of this kernel — 2048 positions — as sixteen groups of 128. -/
theorem sum_2048 {M : Type*} [AddCommMonoid M] (f : Fin 2048 → M) :
    ∑ k : Fin 2048, f k = ∑ i : Fin 16, ∑ j : Fin 128, f ⟨i.val * 128 + j.val, group_lt (a := 16) (b := 128) i j⟩ :=
  sum_groups 16 128 f

/-- The dense affine map: row `(b, s)` of `x` against row `n` of `w`, plus `bias n`. -/
noncomputable def affine (x : FVec Ideal ⟨3, ![4, 1024, 2048]⟩ .f32) (w : FVec Ideal ⟨2, ![2048, 2048]⟩ .f32)
    (bias : FVec Ideal ⟨1, ![2048]⟩ .f32) : FVec Ideal ⟨3, ![4, 1024, 2048]⟩ .f32 :=
  fun i => (∑ k : Fin 2048, x (ix3 (i 0) (i 1) k) * w (ix2 (i 2) k)) + bias (ix1 (i 2))

theorem affine_apply (x : FVec Ideal ⟨3, ![4, 1024, 2048]⟩ .f32) (w : FVec Ideal ⟨2, ![2048, 2048]⟩ .f32)
    (bias : FVec Ideal ⟨1, ![2048]⟩ .f32) (b : Fin 4) (s : Fin 1024) (n : Fin 2048) :
    affine x w bias (ix3 b s n) = (∑ k : Fin 2048, x (ix3 b s k) * w (ix2 n k)) + bias (ix1 n) := rfl

end Idealize.ShloMosaic.DenseAffine
-- ==== Proof.KernelRun.lean ====
/-
  The kernel program's run, read: its result is the dense affine map of its arguments.

  Before the region the program flattens the input to 4096 rows, changes the weight's float format (the identity over the
  extended reals) and views the bias as one row; after it, it unflattens the 4096 × 2048 result to 4 × 1024 × 2048. Row
  `b · 1024 + s` of the flattened input is row `(b, s)` of the input, so the unflattened result at `(b, s, n)` is
  `Σ_k x (b, s, k) · w (n, k) + bias n`.
-/
import proofs.«141525_j12730283065838_2_alg».proof.Proof.KernelArray
import proofs.«141525_j12730283065838_2_alg».proof.Proof.DenseSpec
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Idealize.ShloMosaic.DenseAffine

variable (m : (ℓ : Loc nD τ sig) → Buf (Elt Ideal) ℓ) (ρ : Dev nD → PrngReg)

/-! ### The arrays the region finds -/

/-- The flattened input. -/
theorem entry_input (c : Dev nD) : (V m c main_v0 : S4096x2048.Idx → Elt Ideal .f32)
    = shapeCast S4096x2048 (m ((c : Thread nD τ).loc main_arg0)) shapeCasts_S4x1024x2048_S4096x2048 := by
  show StableHlo.after hostOps0 (fun b => m (c, b)) (Proc.devRef .tc main_v0) = _
  after_results
  rfl

/-- The weight in the product's operand format. -/
theorem entry_weight (c : Dev nD) : (V m c main_v1 : S2048x2048.Idx → Elt Ideal .bf16)
    = truncf (F := Ideal) (s := S2048x2048) (φ := .f32) .bf16 (m ((c : Thread nD τ).loc main_arg1)) bitsLt_bf16_f32 := by
  show StableHlo.after hostOps0 (fun b => m (c, b)) (Proc.devRef .tc main_v1) = _
  after_results

/-- The bias as one row. -/
theorem entry_bias (c : Dev nD) : (V m c main_v2 : S1x2048.Idx → Elt Ideal .f32)
    = shapeCast S1x2048 (m ((c : Thread nD τ).loc main_arg2)) shapeCasts_S2048_S1x2048 := by
  show StableHlo.after hostOps0 (fun b => m (c, b)) (Proc.devRef .tc main_v2) = _
  after_results
  rfl

/-! ### The result -/

/-- Row `b · 1024 + s` of the flattened arrays. -/
abbrev row (b : Fin 4) (s : Fin 1024) : Fin 4096 := ⟨b.val * 1024 + s.val, by have := b.isLt; have := s.isLt; omega⟩

/-- The unflattened `rows` of the flattened input, the reformatted weight and the bias row is the affine map. -/
theorem unflatten_rows (x : FVec Ideal S4x1024x2048 .f32) (w : FVec Ideal S2048x2048 .f32) (bias : FVec Ideal S2048 .f32) :
    shapeCast S4x1024x2048 (rows (shapeCast S4096x2048 x shapeCasts_S4x1024x2048_S4096x2048)
        (truncf .bf16 w bitsLt_bf16_f32) (shapeCast S1x2048 bias shapeCasts_S2048_S1x2048))
      shapeCasts_S4096x2048_S4x1024x2048
      = affine x w bias := by
  funext i
  obtain ⟨b, s, n, rfl⟩ : ∃ (b : Fin 4) (s : Fin 1024) (n : Fin 2048), i = ix3 b s n := ⟨i 0, i 1, i 2, eq_ix3 i⟩
  have hb := b.isLt; have hs := s.isLt; have hn := n.isLt
  rw [affine_apply, shapeCast_apply _ shapeCasts_S4096x2048_S4x1024x2048 (ix3 b s n) (ix2 (row b s) n)
    (by rw [Shape.rowMajor_val_two, Shape.rowMajor_val_three]; rfl)]
  unfold rows
  refine congrArg₂ (· + ·) (Finset.sum_congr rfl fun k _ => congrArg₂ (· * ·) ?_ ?_) ?_
  · exact shapeCast_apply x shapeCasts_S4x1024x2048_S4096x2048 (ix2 (row b s) k) (ix3 b s k)
      (by rw [Shape.rowMajor_val_two, Shape.rowMajor_val_three]; rfl)
  · rfl
  · exact shapeCast_apply bias shapeCasts_S2048_S1x2048 (ix2 0 n) (ix1 n)
      (by rw [Shape.rowMajor_val_two, Shape.rowMajor_val_one]; show n.val = 0 * 2048 + n.val; omega)

/-- What the lines after the region leave in the program's result buffer. -/
theorem result_eq (c : Dev nD) :
    Pipeline.afterTail₀ cfgs (dats m) 0 (V0 m) [hostOps1] c main_v4
      = affine (m ((c : Thread nD τ).loc main_arg0)) (m ((c : Thread nD τ).loc main_arg1)) (m ((c : Thread nD τ).loc main_arg2)) := by
  have e : Pipeline.withArrays spec0 c (V0 m c) (fun w => (dats m 0 c).arrAt w cfg0.N) (Proc.devRef .tc main_v3)
      = rows (V m c main_v0) (V m c main_v1) (V m c main_v2) :=
    (Pipeline.withArrays_arr spec0 launch0.win.arr_inj c _ _ 3).trans (final_rows m c)
  unfold Pipeline.afterTail₀
  show StableHlo.after hostOps1 _ (Proc.devRef .tc main_v4) = _
  after_results
  show shapeCast S4x1024x2048 (Pipeline.withArrays spec0 c (V0 m c) (fun w => (dats m 0 c).arrAt w cfg0.N)
    (Proc.devRef .tc main_v3)) shapeCasts_S4096x2048_S4x1024x2048 = _
  rw [e, entry_input, entry_weight, entry_bias]
  exact unflatten_rows _ _ _

/-- The run, read: the result buffer at the affine map of the arguments, the arguments unchanged. -/
theorem run : θ_run defs (onTc (τ := τ) (main (F := Ideal))) ⟨m, fun _ => 0, ρ⟩ fun r => ∀ c : Dev nD,
      r.2.mem ((c : Thread nD τ).loc main_v4)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefIsAffine.lean ====
/-
  The reference's result, read at an index, is the dense affine map.

  The reference flattens `x` to 4096 rows, cuts each row's 2048 positions into sixteen tiles of 128, and moves the tile
  axis to the front; it transposes `w` and cuts ITS 2048 rows (the positions `k`) into the same sixteen tiles. One batched
  product per tile gives `partial (a, r, n) = Σ_{j < 128} x (r, a · 128 + j) · w (n, a · 128 + j)`; the tiles are added
  from zero, the rows unflattened, and `bias n` added. So at `(b, s, n)` it is
  `(0 + Σ_{a < 16} Σ_{j < 128} x (b, s, a · 128 + j) · w (n, a · 128 + j)) + bias n`: the affine map with its contraction
  grouped in sixteen tiles.
-/
import proofs.«141525_j12730283065838_2_alg».proof.Proof.Gen.ReferenceIdeal.Read
import proofs.«141525_j12730283065838_2_alg».proof.Proof.DenseSpec

noncomputable section

namespace Cert.ReferenceIdeal.RefValue

open Cert.ReferenceIdeal Cert.ReferenceIdeal.Read Idealize.ShloMosaic Idealize.ShloMosaic.ValueIdx
open Idealize.ShloMosaic.DenseAffine

/-- Row `b · 1024 + s` of the flattened input. -/
abbrev row (b : Fin 4) (s : Fin 1024) : Fin 4096 := ⟨b.val * 1024 + s.val, by have := b.isLt; have := s.isLt; omega⟩

/-- Position `a · 128 + j` of tile `a`. -/
abbrev pos (a : Fin 16) (j : Fin 128) : Fin 2048 := ⟨a.val * 128 + j.val, group_lt (a := 16) (b := 128) a j⟩

/-! ### Where each layout operation reads its operand -/

theorem unflatten_idx (b : Fin 4) (s : Fin 1024) (n : Fin 2048) : idx_main_v7 (ix3 b s n) = ix2 (row b s) n := by
  have hb := b.isLt; have hs := s.isLt; have hn := n.isLt
  funext a; apply Fin.ext
  match a with
  | ⟨0, _⟩ => show ((b.val * 1024 + s.val) * 2048 + n.val) / 2048 = b.val * 1024 + s.val; omega
  | ⟨1, _⟩ => show ((b.val * 1024 + s.val) * 2048 + n.val) % 2048 = n.val; omega

theorem tile_sum_idx (r : Fin 4096) (n : Fin 2048) (a : Fin 16) : idx_main_v6 (ix2 r n) a = ix3 a r n :=
  funext fun d => Fin.ext (by match d with | ⟨0, _⟩ => rfl | ⟨1, _⟩ => rfl | ⟨2, _⟩ => rfl)

theorem lhs_idx (a : Fin 16) (r : Fin 4096) (n : Fin 2048) (j : Fin 128) : lidx_main_v5 (ix3 a r n) j = ix3 a r j :=
  funext fun d => Fin.ext (by match d with | ⟨0, _⟩ => rfl | ⟨1, _⟩ => rfl | ⟨2, _⟩ => rfl)

theorem rhs_idx (a : Fin 16) (r : Fin 4096) (n : Fin 2048) (j : Fin 128) : ridx_main_v5 (ix3 a r n) j = ix3 a j n :=
  funext fun d => Fin.ext (by match d with | ⟨0, _⟩ => rfl | ⟨1, _⟩ => rfl | ⟨2, _⟩ => rfl)

theorem tile_front_idx (a : Fin 16) (r : Fin 4096) (j : Fin 128) : idx_main_v2 (ix3 a r j) = ix3 r a j :=
  funext fun d => Fin.ext (by match d with | ⟨0, _⟩ => rfl | ⟨1, _⟩ => rfl | ⟨2, _⟩ => rfl)

theorem tile_cut_idx (r : Fin 4096) (a : Fin 16) (j : Fin 128) : idx_main_v1 (ix3 r a j) = ix2 r (pos a j) := by
  have hr := r.isLt; have ha := a.isLt; have hj := j.isLt
  funext d; apply Fin.ext
  match d with
  | ⟨0, _⟩ => show ((r.val * 16 + a.val) * 128 + j.val) / 2048 = r.val; omega
  | ⟨1, _⟩ => show ((r.val * 16 + a.val) * 128 + j.val) % 2048 = a.val * 128 + j.val; omega

theorem flatten_idx (b : Fin 4) (s : Fin 1024) (k : Fin 2048) : idx_main_v0 (ix2 (row b s) k) = ix3 b s k := by
  have hb := b.isLt; have hs := s.isLt; have hk := k.isLt
  funext d; apply Fin.ext
  match d with
  | ⟨0, _⟩ => show ((b.val * 1024 + s.val) * 2048 + k.val) / 2097152 = b.val; omega
  | ⟨1, _⟩ => show ((b.val * 1024 + s.val) * 2048 + k.val) / 2048 % 1024 = s.val; omega
  | ⟨2, _⟩ => show ((b.val * 1024 + s.val) * 2048 + k.val) % 2048 = k.val; omega

theorem w_tile_cut_idx (a : Fin 16) (j : Fin 128) (n : Fin 2048) : idx_main_v4 (ix3 a j n) = ix2 (pos a j) n := by
  have ha := a.isLt; have hj := j.isLt; have hn := n.isLt
  funext d; apply Fin.ext
  match d with
  | ⟨0, _⟩ => show ((a.val * 128 + j.val) * 2048 + n.val) / 2048 = a.val * 128 + j.val; omega
  | ⟨1, _⟩ => show ((a.val * 128 + j.val) * 2048 + n.val) % 2048 = n.val; omega

theorem w_transpose_idx (k n : Fin 2048) : idx_main_v3 (ix2 k n) = ix2 n k :=
  funext fun d => Fin.ext (by match d with | ⟨0, _⟩ => rfl | ⟨1, _⟩ => rfl)

theorem bias_idx (b : Fin 4) (s : Fin 1024) (n : Fin 2048) : idx_main_v8 (idx_main_v9 (ix3 b s n)) = ix1 n :=
  funext fun d => Fin.ext (by match d with | ⟨0, _⟩ => rfl)

/-! ### The stages at coordinates -/

/-- Tile `a` of row `(b, s)` of the input, position `j`. -/
theorem x_tile (x : FVec Ideal S4x1024x2048 .f32) (a : Fin 16) (b : Fin 4) (s : Fin 1024) (j : Fin 128) :
    val_main_v2 (F := Ideal) x (ix3 a (row b s) j) = x (ix3 b s (pos a j)) := by
  rw [val_main_v2_apply, tile_front_idx, val_main_v1_apply, tile_cut_idx, val_main_v0_apply, flatten_idx]

/-- Tile `a` of the transposed weight, position `j`, column `n`. -/
theorem w_tile (w : FVec Ideal S2048x2048 .f32) (a : Fin 16) (j : Fin 128) (n : Fin 2048) :
    val_main_v4 (F := Ideal) w (ix3 a j n) = w (ix2 n (pos a j)) := by
  rw [val_main_v4_apply, w_tile_cut_idx, val_main_v3_apply, w_transpose_idx]

/-- The reference's result is the dense affine map. -/
theorem result_eq (x : FVec Ideal S4x1024x2048 .f32) (w : FVec Ideal S2048x2048 .f32) (bias : FVec Ideal S2048 .f32) :
    val_main_v10 (F := Ideal) x w bias = affine x w bias := by
  funext i
  obtain ⟨b, s, n, rfl⟩ : ∃ (b : Fin 4) (s : Fin 1024) (n : Fin 2048), i = ix3 b s n := ⟨i 0, i 1, i 2, eq_ix3 i⟩
  rw [affine_apply, val_main_v10_apply, val_main_v7_apply, unflatten_idx, val_main_v6_apply, val_main_v9_apply,
    val_main_v8_apply, bias_idx, val_main_cst_apply, sum_2048]
  simp only [tile_sum_idx, val_main_v5_apply, lhs_idx, rhs_idx, x_tile, w_tile, Ideal.addf_def, Ideal.ofBits_def,
    Ideal.ofBits_zero_f32, zero_add]

end Cert.ReferenceIdeal.RefValue

end
-- ==== Proof.lean ====
/-
  A dense linear layer, tiled two ways, is one function over the extended reals.

  The kernel flattens the input `x` (4 × 1024 × 2048) to 4096 rows and computes, 512 rows per grid point,
  `x ·ᵀ w + bias` with ONE contraction over all 2048 positions; the reference cuts the 2048 positions into sixteen tiles of
  128, takes one batched product per tile, and adds the sixteen partial products from zero before adding the bias. Over the
  extended reals the change of float format is the identity, a matrix product is the plain finite sum of products, and the
  two results differ only in how that finite sum is grouped:

      Σ_{k < 2048} x (b, s, k) · w (n, k)  =  Σ_{a < 16} Σ_{j < 128} x (b, s, a · 128 + j) · w (n, a · 128 + j).

  Regrouping a finite sum uses associativity and commutativity of `+` only, which hold at the infinities too, so the
  precondition (finite inputs) is never opened. Both sides are shown equal to `DenseAffine.affine`
  (`out (b, s, n) = Σ_k x (b, s, k) · w (n, k) + bias n`): the kernel's run in Proof/KernelRun.lean (its block in
  Proof/KernelBlock.lean, the array after the run in Proof/KernelArray.lean), the reference's in Proof/RefIsAffine.lean.
  The idealized kernel is the kernel's own text read over the extended reals — no operation of it was replaced — so
  `preserves` has no conjunct.
-/
import proofs.«141525_j12730283065838_2_alg».proof.Defs
import proofs.«141525_j12730283065838_2_alg».proof.Proof.Gen.Kernel
import proofs.«141525_j12730283065838_2_alg».proof.Proof.Gen.Kernel.Skeleton
import proofs.«141525_j12730283065838_2_alg».proof.Proof.Gen.Kernel.Launch
import proofs.«141525_j12730283065838_2_alg».proof.Proof.Gen.Kernel.Points
import proofs.«141525_j12730283065838_2_alg».proof.Proof.Gen.Kernel.Frame
import proofs.«141525_j12730283065838_2_alg».proof.Proof.Gen.KernelIdeal
import proofs.«141525_j12730283065838_2_alg».proof.Proof.Gen.KernelIdeal.Skeleton
import proofs.«141525_j12730283065838_2_alg».proof.Proof.Gen.KernelIdeal.Launch
import proofs.«141525_j12730283065838_2_alg».proof.Proof.Gen.KernelIdeal.Points
import proofs.«141525_j12730283065838_2_alg».proof.Proof.Gen.KernelIdeal.Frame
import proofs.«141525_j12730283065838_2_alg».proof.Proof.Gen.ReferenceIdeal
import proofs.«141525_j12730283065838_2_alg».proof.Proof.Gen.ReferenceIdeal.Run
import proofs.«141525_j12730283065838_2_alg».proof.Proof.Gen.ReferenceIdeal.Read
import proofs.«141525_j12730283065838_2_alg».proof.Proof.Gen.Pre_finite_inputs
import proofs.«141525_j12730283065838_2_alg».proof.Proof.KernelRun
import proofs.«141525_j12730283065838_2_alg».proof.Proof.RefIsAffine
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the dense affine map of their (agreeing) arguments in their result. -/
theorem algebraic : Cert.algebraic_KernelIdeal_ReferenceIdeal := by
  intro m ρ m' ρ' _ hagree
  refine ⟨fun c => DenseAffine.affine
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
